-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.LibClamp.lean ====
/-
  The clamp constant. The f32 word 0x358637BD denotes the positive real 8796093 · 2⁻⁴³ (about 10⁻⁶).
  Clamping from below by a positive real absorbs a clamp by 0, and the logarithm of a clamped value
  that is not +∞ is a finite number: the clamped value is a positive real.
-/
import Idealize.ShloMosaic.PureOps.Ideal

noncomputable section

namespace Cert.Lib.Clamp

open Idealize.ShloMosaic

/-- The word 0x358637BD read as an f32 is (2²³ + 407485) · 2^(107 - 127 - 23) = 8796093 · 2⁻⁴³. The one place
    the word is evaluated. -/
theorem clamp_eq_coe :
    Ideal.ofBits .f32 0x358637BD#32 = (((8796093 : ℝ) * (2 : ℝ) ^ (-43 : ℤ) : ℝ) : EReal) := by
  simp [Ideal.ofBits, Ideal.ieee, -EReal.coe_mul]

/-- The clamp constant is a positive real. -/
theorem clamp_pos_real : ∃ r : ℝ, 0 < r ∧ Ideal.ofBits .f32 0x358637BD#32 = (r : EReal) :=
  ⟨_, by positivity, clamp_eq_coe⟩

/-- The clamp constant is positive. -/
theorem clamp_pos : (0 : EReal) < Ideal.ofBits .f32 0x358637BD#32 := by
  obtain ⟨r, hr, e⟩ := clamp_pos_real
  rw [e]
  exact EReal.coe_pos.2 hr

/-- The clamp constant is finite. -/
theorem clamp_finite :
    Ideal.ofBits .f32 0x358637BD#32 ≠ ⊤ ∧ Ideal.ofBits .f32 0x358637BD#32 ≠ ⊥ := by
  obtain ⟨r, -, e⟩ := clamp_pos_real
  rw [e]
  exact ⟨EReal.coe_ne_top r, EReal.coe_ne_bot r⟩

/-- A clamp by 0 followed by the clamp by the constant is the clamp by the constant: max (max x 0) c = max x c. -/
theorem max_max_zero_clamp (x : EReal) :
    max (max x 0) (Ideal.ofBits .f32 0x358637BD#32) = max x (Ideal.ofBits .f32 0x358637BD#32) := by
  rw [max_assoc, max_eq_right clamp_pos.le]

/-- The logarithm of a positive real is the real logarithm, coerced. -/
theorem log_coe_of_pos {t : ℝ} (ht : 0 < t) : Ideal.log (t : EReal) = ((Real.log t : ℝ) : EReal) := by
  rw [Ideal.log_coe, if_neg (not_le.2 ht)]

/-- A value that is not +∞, clamped from below by the constant, is a positive real. -/
theorem max_clamp_pos_real {x : EReal} (hx : x ≠ ⊤) :
    ∃ t : ℝ, 0 < t ∧ max x (Ideal.ofBits .f32 0x358637BD#32) = (t : EReal) := by
  obtain ⟨r, hr, e⟩ := clamp_pos_real
  rw [e]
  induction x using EReal.rec with
  | bot => exact ⟨r, hr, max_bot_left _⟩
  | coe y => exact ⟨max y r, lt_max_of_lt_right hr, (EReal.coe_strictMono.monotone.map_max).symm⟩
  | top => exact absurd rfl hx

/-- So its logarithm is finite: for x ≠ ⊤, log (max x c) is neither ⊤ nor ⊥. -/
theorem log_max_clamp_finite {x : EReal} (hx : x ≠ ⊤) :
    Ideal.log (max x (Ideal.ofBits .f32 0x358637BD#32)) ≠ ⊤
      ∧ Ideal.log (max x (Ideal.ofBits .f32 0x358637BD#32)) ≠ ⊥ := by
  obtain ⟨t, ht, e⟩ := max_clamp_pos_real hx
  rw [e, log_coe_of_pos ht]
  exact ⟨EReal.coe_ne_top _, EReal.coe_ne_bot _⟩

end Cert.Lib.Clamp

end
-- ==== Proof.Spec.lean ====
/-
  Root-mean-square normalisation of one row, on the extended reals.

  For a row `x` of 4096 entries and a gain vector `g` the normalised row is
      x q · (s / 4096 + ε)^(-1/2) · g q,      s = 0 + ∑ k, x k · x k,
  where 4096, ε and the leading 0 are the f32 words both programs spell. One program takes the inverse square root in
  one step, the other divides 1 by the square root. The two agree on every nonnegative extended real (at 0 both are
  +∞, at +∞ both are 0, at a positive real both are the reciprocal of the real square root), and the argument here is
  nonnegative whatever the row holds: a square is nonnegative on the extended reals (an infinity squared is +∞), so is
  a finite sum of squares, so is its quotient by the positive real 4096, and ε is positive.
-/
import Idealize.ShloMosaic.PureOps.Ideal
import Idealize.ShloMosaic.PureOps.Ideal.Laws
import Idealize.ShloMosaic.Lib.ValueIdx
import proofs.«116433_g84713934946541_pilotgen1_326_7_alg».proof.Proof.LibClamp

noncomputable section

namespace Cert.RmsNorm

open Idealize.ShloMosaic Idealize.ShloMosaic.ValueIdx

/-! ## The three words -/

/-- The f32 word of 4096 is the real 4096 = 2²³ · 2^(139 - 127 - 23). -/
theorem n_eq : Ideal.ofBits .f32 0x45800000#32 = ((4096 : ℝ) : EReal) := by
  simp [Ideal.ofBits, Ideal.ieee, -EReal.coe_mul]
  norm_num

/-- The f32 word of 1 is 1 = 2²³ · 2^(127 - 127 - 23). -/
theorem one_eq : Ideal.ofBits .f32 0x3F800000#32 = (1 : EReal) := by
  simp [Ideal.ofBits, Ideal.ieee, -EReal.coe_mul]
  norm_num

/-! ## The row's statistic and the normalised entry -/

/-- The mean of the squares of a row's entries, plus ε: `(0 + ∑ k, x k · x k) / 4096 + ε`. -/
def meanSq (x : Fin 4096 → EReal) : EReal :=
  Ideal.div (Ideal.ofBits .f32 0x00000000#32 + ∑ k : Fin 4096, x k * x k) (Ideal.ofBits .f32 0x45800000#32)
    + Ideal.ofBits .f32 0x358637BD#32

/-- Entry `q` of the normalised row: `x q · (meanSq x)^(-1/2) · g q`. -/
def normed (x g : Fin 4096 → EReal) (q : Fin 4096) : EReal :=
  x q * Ideal.rsqrt (meanSq x) * g q

/-! ## Nonnegativity -/

/-- A square is nonnegative on the extended reals: an infinity squared is +∞. -/
theorem mul_self_nonneg' (a : EReal) : 0 ≤ a * a := by
  induction a using EReal.rec with
  | bot => rw [EReal.bot_mul_bot]; exact le_top
  | coe r => rw [← EReal.coe_mul]; exact EReal.coe_nonneg.2 (mul_self_nonneg r)
  | top => rw [EReal.top_mul_top]; exact le_top

/-- The statistic is nonnegative, whatever the row holds. -/
theorem meanSq_nonneg (x : Fin 4096 → EReal) : 0 ≤ meanSq x := by
  unfold meanSq
  rw [Ideal.ofBits_zero_f32, zero_add, n_eq, Ideal.div_coe (by norm_num : (4096 : ℝ) ≠ 0)]
  refine add_nonneg (mul_nonneg (Finset.sum_nonneg fun k _ => mul_self_nonneg' (x k)) ?_) Cert.Lib.Clamp.clamp_pos.le
  exact EReal.coe_nonneg.2 (by norm_num)

/-! ## The inverse square root, in one step or in two -/

/-- On a nonnegative extended real, 1 divided by the square root is the inverse square root. -/
theorem one_div_sqrt {y : EReal} (hy : 0 ≤ y) : Ideal.div 1 (Ideal.sqrt y) = Ideal.rsqrt y := by
  induction y using EReal.rec with
  | bot => exact absurd hy (not_le.2 EReal.bot_lt_zero)
  | top =>
    rw [Ideal.sqrt_top, Ideal.rsqrt_top, Ideal.div, if_neg EReal.top_ne_zero, EReal.inv_top, mul_zero]
  | coe r =>
    have hr : 0 ≤ r := EReal.coe_nonneg.1 hy
    rw [Ideal.sqrt_coe, Ideal.rsqrt_coe, if_neg (not_lt.2 hr), if_neg (not_lt.2 hr)]
    by_cases h0 : r = 0
    · subst h0
      rw [if_pos rfl, Real.sqrt_zero, EReal.coe_zero, Ideal.div, if_pos rfl, if_pos zero_lt_one]
    · have hs : Real.sqrt r ≠ 0 := fun h => h0 ((Real.sqrt_eq_zero hr).1 h)
      rw [if_neg h0, Ideal.div, if_neg (by exact_mod_cast hs), one_mul, EReal.coe_inv]

/-- The normalised entry with the inverse square root spelt as the quotient of the word 1 by the square root. -/
theorem normed_quotient (x g : Fin 4096 → EReal) (q : Fin 4096) :
    x q * Ideal.div (Ideal.ofBits .f32 0x3F800000#32) (Ideal.sqrt (meanSq x)) * g q = normed x g q := by
  rw [one_eq, one_div_sqrt (meanSq_nonneg x)]
  rfl

/-! ## The whole array -/

/-- The normalised array over `[4, 4096, 4096]`: entry `(b, s, q)` is entry `q` of row `(b, s)` normalised, with the
    gain vector `g`. -/
def normed3 (x : (⟨3, ![4, 4096, 4096]⟩ : Shape).Idx → EReal) (g : (⟨1, ![4096]⟩ : Shape).Idx → EReal) :
    (⟨3, ![4, 4096, 4096]⟩ : Shape).Idx → EReal :=
  fun i => normed (fun k => x (ix3 (i 0) (i 1) k)) (fun k => g (ix1 k)) (i 2)

/-- The same over the rows laid out as `[16384, 4096]` with the gain as one row `[1, 4096]`: entry `(r, q)` is entry `q`
    of row `r` normalised. -/
def normed2 (x : (⟨2, ![16384, 4096]⟩ : Shape).Idx → EReal) (g : (⟨2, ![1, 4096]⟩ : Shape).Idx → EReal) :
    (⟨2, ![16384, 4096]⟩ : Shape).Idx → EReal :=
  fun i => normed (fun k => x (ix2 (i 0) k)) (fun k => g (ix2 (0 : Fin 1) k)) (i 1)

end Cert.RmsNorm

end
-- ==== Proof.RefValue.lean ====
/-
  The reference computes the normalised array: its last stage, read entry by entry through the generated
  read-at-an-index lemmas, is entry `q` of row `(b, s)` normalised, the inverse square root spelt as 1 over the square
  root.
-/
import proofs.«116433_g84713934946541_pilotgen1_326_7_alg».proof.Proof.Gen.ReferenceIdeal.Read
import proofs.«116433_g84713934946541_pilotgen1_326_7_alg».proof.Proof.Spec

noncomputable section

namespace Cert.RmsNorm.Ref

open Cert.ReferenceIdeal Cert.ReferenceIdeal.Read Idealize.ShloMosaic Idealize.ShloMosaic.ValueIdx

/-- The row sum's operand index under the two broadcasts: entry `k` of row `(b, s)`. -/
theorem idx_row (b : Fin 4) (s : Fin 4096) (q k : Fin 4096) :
    idx_main_v1 (idx_main_v2 (idx_main_v10 (ix3 b s q))) k = ix3 b s k :=
  funext fun a => Fin.ext (by match a with | ⟨0, _⟩ => rfl | ⟨1, _⟩ => rfl | ⟨2, _⟩ => rfl)

/-- The gain's index under its two broadcasts: entry `q`. -/
theorem idx_gain (b : Fin 4) (s : Fin 4096) (q : Fin 4096) :
    idx_main_v12 (idx_main_v13 (ix3 b s q)) = ix1 q :=
  funext fun a => Fin.ext (by match a with | ⟨0, _⟩ => rfl)

/-- The reference's result is the normalised array. -/
theorem result_eq (x0 : (⟨S4x4096x4096, .f32⟩ : BufTy).Contents (Elt Ideal)) (x1 : (⟨S4096, .f32⟩ : BufTy).Contents (Elt Ideal)) :
    val_main_v14 (F := Ideal) x0 x1 = normed3 x0 x1 := by
  funext i
  obtain ⟨b, s, q, rfl⟩ : ∃ (b : Fin 4) (s : Fin 4096) (q : Fin 4096), i = ix3 b s q := ⟨i 0, i 1, i 2, eq_ix3 i⟩
  rw [val_main_v14_apply, val_main_v11_apply, val_main_v10_apply, val_main_v9_apply, val_main_v8_apply,
    val_main_cst_2_apply, val_main_v7_apply, val_main_v6_apply, val_main_v4_apply, val_main_v2_apply,
    val_main_v1_apply, val_main_cst_apply, val_main_v3_apply, val_main_cst_0_apply, val_main_v5_apply,
    val_main_cst_1_apply, val_main_v13_apply, val_main_v12_apply]
  simp only [val_main_v0_apply, idx_row, idx_gain]
  exact normed_quotient (fun k => x0 (ix3 b s k)) (fun k => x1 (ix1 k)) q

end Cert.RmsNorm.Ref

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelPay.lean ====
/-
  What the kernel body stores, entry by entry: for a block of 512 rows `x` and the gain as one row `g`, entry `(p, q)` of
  the stored block is entry `q` of row `p` normalised. The row sum of squares is a lane reduction read as a finite sum,
  kept as a column, divided by 4096, ε added, the inverse square root taken and the column spread back along the row;
  the gain's one row is spread down the 512 rows.
-/
import proofs.«116433_g84713934946541_pilotgen1_326_7_alg».proof.Proof.Gen.KernelIdeal.Skeleton
import proofs.«116433_g84713934946541_pilotgen1_326_7_alg».proof.Proof.Spec
import proofs.«116433_g84713934946541_pilotgen1_326_7_alg».proof.Proof.LibLayout
import Idealize.ShloMosaic.Lib.ValueLayout
import Idealize.ShloMosaic.Lib.Pipeline.Value

noncomputable section

namespace Cert.RmsNorm.Kernel

open Cert.KernelIdeal Cert.KernelIdeal.Gen Idealize.ShloMosaic Idealize.ShloMosaic.ValueIdx Cert.Attn.Layout

/-- The lane reduction of the body, read at row `p`: the sum of the row's entries. -/
theorem rowSum512 (src : FVec Ideal S512x4096 .f32) (hφ : FKind.Formats .f32)
    (hacc : (0x00000000#32 : BitVec 32) = 0x00000000#32) (p : Fin 512) :
    multiReduction (F := Ideal) .add [1] S512 src 0x00000000#32 reduces_S512x4096_S512 hφ hacc (ix1 p)
      = ∑ k : Fin 4096, src (ix2 p k) :=
  rowSum_apply src reduces_S512x4096_S512 hφ hacc p

/-- The stored block at `(p, q)`. -/
theorem pay_apply (x : Vec Ideal S512x4096 .f32) (g : Vec Ideal S1x4096 .f32) (p : Fin 512) (q : Fin 4096) :
    k0_pay1 (F := Ideal) x g (ix2 p q) = normed (fun k => x (ix2 p k)) (fun k => g (ix2 (0 : Fin 1) k)) q := by
  unfold k0_pay1
  simp only [mulf_apply, shapeCast_self]
  rw [broadcastTo_a1_ab_apply, broadcastTo_1b_ab_apply]
  show x (ix2 p q) * Ideal.rsqrt (Ideal.div (shapeCast S512x1 (multiReduction (F := Ideal) FKind.add [1] S512 (mulf x x) (0#32)
      reduces_S512x4096_S512 _ _) shapeCasts_S512_S512x1 (ix2 p (0 : Fin 1))) (Ideal.ofBits .f32 0x45800000#32)
      + Ideal.ofBits .f32 0x358637BD#32) * g (ix2 (0 : Fin 1) q) = _
  rw [shapeCast_a_a1_apply, rowSum512]
  unfold normed meanSq
  rw [Ideal.ofBits_zero_f32, zero_add]
  rfl

end Cert.RmsNorm.Kernel

end
-- ==== Proof.Flat.lean ====
/-
  The rows of a `[4, 4096, 4096]` array laid out as `[16384, 4096]` and back. Row `(b, s)` is row `b · 4096 + s` of the
  flat layout, both layouts being row-major; so normalising the rows of the flat array and folding the result back is
  normalising the rows of the original array.
-/
import proofs.«116433_g84713934946541_pilotgen1_326_7_alg».proof.Proof.Spec
import Idealize.ShloMosaic.Lib.ValueLayout
import Idealize.ShloMosaic.Lib.Pipeline.Value

noncomputable section

namespace Cert.RmsNorm

open Idealize.ShloMosaic Idealize.ShloMosaic.ValueIdx

variable {α : Type}

/-- The flat layout at `(b · 4096 + s, k)` is the original at `(b, s, k)`. -/
theorem flatten_apply (x : (⟨3, ![4, 4096, 4096]⟩ : Shape).Idx → α)
    (h : (⟨3, ![4, 4096, 4096]⟩ : Shape).ShapeCasts ⟨2, ![16384, 4096]⟩) (b : Fin 4) (s k : Fin 4096)
    (hr : b.val * 4096 + s.val < 16384) :
    shapeCast ⟨2, ![16384, 4096]⟩ x h (ix2 (⟨b.val * 4096 + s.val, hr⟩ : Fin 16384) k) = x (ix3 b s k) :=
  shapeCast_apply x h _ _ (by
    rw [Shape.rowMajor_val_three, Shape.rowMajor_val_two]
    rfl)

/-- Folding back: the `[4, 4096, 4096]` layout at `(b, s, q)` is the flat array at `(b · 4096 + s, q)`. -/
theorem unflatten_apply (y : (⟨2, ![16384, 4096]⟩ : Shape).Idx → α)
    (h : (⟨2, ![16384, 4096]⟩ : Shape).ShapeCasts ⟨3, ![4, 4096, 4096]⟩) (b : Fin 4) (s q : Fin 4096)
    (hr : b.val * 4096 + s.val < 16384) :
    shapeCast ⟨3, ![4, 4096, 4096]⟩ y h (ix3 b s q) = y (ix2 (⟨b.val * 4096 + s.val, hr⟩ : Fin 16384) q) :=
  shapeCast_apply y h _ _ (by
    rw [Shape.rowMajor_val_two, Shape.rowMajor_val_three]
    rfl)

/-- Normalising the rows of the flat layout, with the gain as one row, and folding back is normalising the rows of the
    original array. -/
theorem normed2_flat (x : (⟨3, ![4, 4096, 4096]⟩ : Shape).Idx → EReal) (g : (⟨1, ![4096]⟩ : Shape).Idx → EReal)
    (h1 : (⟨3, ![4, 4096, 4096]⟩ : Shape).ShapeCasts ⟨2, ![16384, 4096]⟩)
    (h2 : (⟨1, ![4096]⟩ : Shape).ShapeCasts ⟨2, ![1, 4096]⟩)
    (h3 : (⟨2, ![16384, 4096]⟩ : Shape).ShapeCasts ⟨3, ![4, 4096, 4096]⟩) :
    shapeCast ⟨3, ![4, 4096, 4096]⟩
        (normed2 (shapeCast ⟨2, ![16384, 4096]⟩ x h1) (shapeCast ⟨2, ![1, 4096]⟩ g h2)) h3
      = normed3 x g := by
  funext i
  obtain ⟨b, s, q, rfl⟩ : ∃ (b : Fin 4) (s : Fin 4096) (q : Fin 4096), i = ix3 b s q := ⟨i 0, i 1, i 2, eq_ix3 i⟩
  have hr : b.val * 4096 + s.val < 16384 := by have := b.isLt; have := s.isLt; omega
  rw [unflatten_apply _ h3 b s q hr]
  show normed (fun k => shapeCast ⟨2, ![16384, 4096]⟩ x h1 (ix2 (⟨b.val * 4096 + s.val, hr⟩ : Fin 16384) k))
      (fun k => shapeCast ⟨2, ![1, 4096]⟩ g h2 (ix2 (0 : Fin 1) k)) q
    = normed (fun k => x (ix3 b s k)) (fun k => g (ix1 k)) q
  simp only [flatten_apply x h1 b s _ hr, shapeCast_a_1a_apply]

end Cert.RmsNorm

end
-- ==== Proof.KernelValue.lean ====
/-
  The kernel's result array. Point `t` of the 32-point grid reads rows `512 t … 512 t + 511` of the flat input and the
  gain's one row, and writes back the same rows normalised; the 32 blocks cover the `[16384, 4096]` array, so after the
  region it holds every row of the flat input normalised. The flat input and the one-row gain are reshapes of the
  arguments made before the region, and the result is the region's array folded back to `[4, 4096, 4096]`; together
  that is every row of the argument array normalised.
-/
import proofs.«116433_g84713934946541_pilotgen1_326_7_alg».proof.Proof.Gen.KernelIdeal.Frame
import proofs.«116433_g84713934946541_pilotgen1_326_7_alg».proof.Proof.KernelPay
import proofs.«116433_g84713934946541_pilotgen1_326_7_alg».proof.Proof.Flat
import Idealize.ShloMosaic.Lib.Pipeline.Value
import Idealize.ShloMosaic.Lib.StableHlo.Run

noncomputable section

namespace Cert.RmsNorm.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One point's block -/

theorem origin : (![0, 0] : Fin 2 → Nat) = fun _ => 0 := funext fun a => by fin_cases a <;> rfl

/-- The block indices over the grid: the input rows and the output rows move with the point, the gain's row stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the flat input's rows normalised. -/
theorem flushed_eq (c : Dev nD) (t : Fin cfg0.N) :
    (dats m 0 c).flushed 2 t
      = ((cfg0.win 2).blk t).view.read (Elt Ideal) (normed2 (V m c main_v0) (V m c main_v1)) := by
  show (cfg0.win 2).cut (grid0.coords t) ((dats m 0 c).after 2 t) = _
  rw [after0_2]
  unfold out0_2
  rw [View.canon_unit_zero origin]
  simp only [View.ld_unit_zero (S := S512x4096) origin, View.ld_unit_zero (S := S1x4096) origin]
  obtain ⟨e00, e01, e10, e11, e20, e21⟩ := block_index t
  funext j
  obtain ⟨p, q, rfl⟩ : ∃ (p : Fin 512) (q : Fin 4096), j = ix2 p q := ⟨j 0, j 1, eq_ix2 (n0 := 512) (n1 := 4096) j⟩
  show k0_pay1 (F := Ideal) (iblk m c 0 t) (iblk m c 1 t) (ix2 p q)
    = normed (fun k => V m c main_v0 (ix2 ((((cfg0.win 2).blk t).view.emb (ix2 p q)) 0) k))
        (fun k => V m c main_v1 (ix2 (0 : Fin 1) k)) ((((cfg0.win 2).blk t).view.emb (ix2 p q)) 1)
  refine (pay_apply (iblk m c 0 t) (iblk m c 1 t) p q).trans ?_
  have hrow : (fun k : Fin 4096 => iblk m c 0 t (ix2 p k))
      = fun k : Fin 4096 => V m c main_v0 (ix2 ((((cfg0.win 2).blk t).view.emb (ix2 p q)) 0) k) := by
    funext k
    show V m c main_v0 (((cfg0.win 0).blk t).view.emb (ix2 p k)) = _
    refine congrArg _ (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 4096 + 1 * k.val = k.val
      omega
  have hgain : (fun k : Fin 4096 => iblk m c 1 t (ix2 (0 : Fin 1) k))
      = fun k : Fin 4096 => V m c main_v1 (ix2 (0 : Fin 1) k) := by
    funext k
    show V m c main_v1 (((cfg0.win 1).blk t).view.emb (ix2 (0 : Fin 1) k)) = _
    refine congrArg _ (funext fun a => Fin.ext ?_)
    match a with
    | ⟨0, _⟩ =>
      show win0_1.index t (0 : Fin 2) * 1 + 1 * 0 = 0
      omega
    | ⟨1, _⟩ =>
      show win0_1.index t (1 : Fin 2) * 4096 + 1 * k.val = k.val
      omega
  have hq : q = (((cfg0.win 2).blk t).view.emb (ix2 p q)) 1 :=
    Fin.ext (by
      show q.val = win0_2.index t (1 : Fin 2) * 4096 + 1 * q.val
      omega)
  exact congr (congr (congrArg normed hrow) hgain) hq

/-! ## The blocks cover the array -/

/-- An index is in point `t`'s block iff each coordinate is in the block's range on its axis. -/
theorem mem_blk (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v2).slice (win0_2.rect t)).set ↔ _
  rw [View.set_slice_whole, Rect.mem_set_unit]
  exact Iff.rfl

/-- Row `r` is in the block of point `r / 512`. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : grid0.N = 32 := N_0
  have hlt : (i 0).val / 512 < grid0.N := by omega
  obtain ⟨-, -, -, -, e20, e21⟩ := block_index ⟨(i 0).val / 512, hlt⟩
  have e20' : win0_2.index ⟨(i 0).val / 512, hlt⟩ (0 : Fin 2) = (i 0).val / 512 := e20
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 4096 ≤ (i 1).val
      ∧ (i 1).val < win0_2.index ⟨(i 0).val / 512, hlt⟩ (1 : Fin 2) * 4096 + 4096
    omega

/-- After the region its array holds the flat input's rows normalised. -/
theorem final (c : Dev nD) : (dats m 0 c).arrAt 2 cfg0.N = normed2 (V m c main_v0) (V m c main_v1) :=
  (dats m 0 c).arrAt_eq_of_cover 2 _ (fun t _ => flushed_eq m c t) cover

end Cert.RmsNorm.Kernel

end
-- ==== Proof.KernelRun.lean ====
/-
  The kernel's run, read: the two reshapes before the region give the flat input and the one-row gain, the region
  leaves the flat input's rows normalised, and the reshape after it folds them back; so the result is every row of the
  argument array normalised, and the arguments end as they were.
-/
import proofs.«116433_g84713934946541_pilotgen1_326_7_alg».proof.Proof.KernelValue

noncomputable section

namespace Cert.RmsNorm.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds the flat layout of the first argument. -/
theorem flat_input (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results
  rfl

/-- And the gain as one row. -/
theorem row_gain (c : Dev nD) :
    (V m c main_v1 : S1x4096.Idx → EReal)
      = shapeCast S1x4096 (m ((c : Thread nD τ).loc main_arg1)) shapeCasts_S4096_S1x4096 := by
  show StableHlo.after hostOps0 (fun b => m (c, b)) (Proc.devRef .tc main_v1) = _
  after_results
  rfl

/-- The result of @main: the region's array folded back, which is the argument's rows normalised. -/
theorem result_eq (c : Dev nD) :
    (Pipeline.afterTail₀ cfgs (dats m) 0 (V0 m) [hostOps1] c main_v3 : S4x4096x4096.Idx → EReal)
      = normed3 (m ((c : Thread nD τ).loc main_arg0)) (m ((c : Thread nD τ).loc main_arg1)) := by
  unfold Pipeline.afterTail₀
  show StableHlo.after hostOps1 _ (Proc.devRef .tc main_v3) = _
  after_results
  have hw := (Pipeline.withArrays_arr spec0 launch0.win.arr_inj c (V0 m c)
    (fun w => (dats m 0 c).arrAt w cfg0.N) 2).trans (final m c)
  refine (congrArg (fun y : S16384x4096.Idx → EReal =>
    shapeCast S4x4096x4096 y shapeCasts_S16384x4096_S4x4096x4096) hw).trans ?_
  rw [flat_input, row_gain]
  exact normed2_flat _ _ _ _ _

/-- Every weakly fair execution of the kernel's @main ends with the result at the argument's rows normalised and the
    arguments unchanged. -/
theorem run : θ_run defs (onTc (τ := τ) (main (F := Ideal))) ⟨m, fun _ => 0, ρ⟩ fun r => ∀ c : Dev nD,
      r.2.mem ((c : Thread nD τ).loc main_v3)
        = normed3 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.RmsNorm.Kernel

end
-- ==== Proof.lean ====
/-
  Root-mean-square normalisation over the last axis of a `[4, 4096, 4096]` array with a gain vector:
      y (b, s, q) = x (b, s, q) · ((0 + ∑ k, x (b, s, k)²) / 4096 + ε)^(-1/2) · g q.

  The kernel lays the rows out as `[16384, 4096]`, normalises 512 rows per grid point with the inverse square root
  taken in one step, and folds the result back. The reference computes the same row statistic on the `[4, 4096, 4096]`
  layout and multiplies by 1 over its square root. On the extended reals the two inverse square roots agree on every
  nonnegative argument, and the statistic is nonnegative for every input (a square is nonnegative, infinities
  included), so the two results agree entry by entry without any appeal to the inputs being finite. The three words
  0, 4096 and ε are the same on both sides; only the reference's word 1 is evaluated.

  Proof/Spec.lean: the row statistic, the normalised entry, nonnegativity, the two spellings of the inverse square root.
  Proof/RefValue.lean: the reference's result is the normalised array.
  Proof/KernelPay.lean: the kernel body's stored block, entry by entry.
  Proof/Flat.lean: the flat layout of the rows and back.
  Proof/KernelValue.lean: one point's block, the cover, the region's array.
  Proof/KernelRun.lean: the reshapes around the region and the kernel's run.
-/
import proofs.«116433_g84713934946541_pilotgen1_326_7_alg».proof.Defs
import proofs.«116433_g84713934946541_pilotgen1_326_7_alg».proof.Proof.Gen.Kernel
import proofs.«116433_g84713934946541_pilotgen1_326_7_alg».proof.Proof.Gen.Kernel.Frame
import proofs.«116433_g84713934946541_pilotgen1_326_7_alg».proof.Proof.Gen.KernelIdeal
import proofs.«116433_g84713934946541_pilotgen1_326_7_alg».proof.Proof.Gen.KernelIdeal.Frame
import proofs.«116433_g84713934946541_pilotgen1_326_7_alg».proof.Proof.Gen.ReferenceIdeal
import proofs.«116433_g84713934946541_pilotgen1_326_7_alg».proof.Proof.Gen.Pre_finite_inputs
import proofs.«116433_g84713934946541_pilotgen1_326_7_alg».proof.Proof.Gen.ReferenceIdeal.Run
import proofs.«116433_g84713934946541_pilotgen1_326_7_alg».proof.Proof.Gen.ReferenceIdeal.Read
import proofs.«116433_g84713934946541_pilotgen1_326_7_alg».proof.Proof.RefValue
import proofs.«116433_g84713934946541_pilotgen1_326_7_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the arguments both programs end with the argument's rows normalised. -/
theorem algebraic : Cert.algebraic_KernelIdeal_ReferenceIdeal := by
  intro m ρ m' ρ' _ hagree
  refine ⟨fun c => Cert.RmsNorm.normed3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RmsNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RmsNorm.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
